-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel program's run, with its result named.

  The program is a chain of eight segments: three stretches of host operations, the first projection's grid,
  two stretches, the second projection's grid, one last stretch. Every weakly fair execution goes through
  them in order, and after each segment every buffer that lives for the whole program holds a known value:
  a stretch of host operations folds its operations' results over the contents it starts from, and a grid
  leaves each of its arrays at what its write-backs add up to and every other buffer untouched. The contents
  after the last stretch are therefore a fold from the launch memory, and the final memory agrees with it at
  every such buffer: in particular at the result array, and at the six arguments, which nothing writes.
-/
import proofs.«172179_j58076547776807_1_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; in the final memory the result array
    holds the last fold's value at its buffer, and the six argument arrays are as launched. -/
theorem run_result : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KRun

end
-- ==== Proof.Spec.lean ====
/-
  The two-layer graph convolution, as one function of the argument arrays.

  A graph on N = 100000 nodes is given by E = 1600000 directed edges (row 0 of the edge array holds the
  sources, row 1 the targets); every node also gets a self loop, so there are E + N = 1700000 messages.
  With deg(v) the number of messages arriving at v and dinv(v) = deg(v)^(-1/2) where deg(v) > 0 (else 0), message
  e carries the weight norm(e) = dinv(src e) · 1 · dinv(dst e). One layer sends a feature matrix H through a dense
  projection H · W and then forms, for every node v, the sum over the messages e arriving at v of
  norm(e) · (H · W)(src e, ·), plus the bias row. The network is layer 1, a rectifier, layer 2.

  Everything except the two dense projections is written here with the very host operations both programs
  apply (the index arithmetic is jnp's: a negative index wraps once by N, gathers clamp, the scatter adds), so
  that each program's chain of host operations is one of these functions applied to its operands, and the two
  programs can differ only in how they compute the projections.
-/
import proofs.«172179_j58076547776807_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- One row of the edge array followed by the self loops 0, 1, …, N-1: row 0 gives the message sources. -/
def srcIdx (e : (⟨S2x1600000, .i32⟩ : BufTy).Contents (Elt F)) : (⟨S1700000, .i32⟩ : BufTy).Contents (Elt F) :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

/-- Row 1 followed by the self loops: the message targets. -/
def dstIdx (e : (⟨S2x1600000, .i32⟩ : BufTy).Contents (Elt F)) : (⟨S1700000, .i32⟩ : BufTy).Contents (Elt F) :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- A list of node numbers as the start indices of a gather: a negative number wraps once by N, and the
    list becomes a column. -/
def startIdx (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- deg(v): the number of messages whose target is v (a sum of ones scattered to the targets, from zero). -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- dinv(v) = deg(v)^(-1/2) where deg(v) > 0, and 0 elsewhere. -/
def invSqrt (deg : (⟨S100000, .f32⟩ : BufTy).Contents (Elt F)) : (⟨S100000, .f32⟩ : BufTy).Contents (Elt F) :=
  select (cmpf .ogt deg (broadcastInDim S100000 ![] bcast_S_S100000 (constant S_ .f32 0x00000000#32)))
    (Host.powf deg (broadcastInDim S100000 ![] bcast_S_S100000 (constant S_ .f32 0xBF000000#32)))
    (broadcastInDim S100000 ![] bcast_S_S100000 (id (constant S_ .f32 0x00000000#32)))

/-- norm(e) = dinv(src e) · 1 · dinv(dst e), one weight per message. -/
def edgeNorm (src dst : (⟨S1700000, .i32⟩ : BufTy).Contents (Elt F)) : (⟨S1700000, .f32⟩ : BufTy).Contents (Elt F) :=
  mulf
    (mulf (Host.gather gather_S100000_S1700000x1_S1700000_n_0_n_n_0_1_1 (invSqrt (degree dst)) (startIdx src))
      (broadcastInDim S1700000 ![] bcast_S_S1700000 (constant S_ .f32 0x3F800000#32)))
    (Host.gather gather_S100000_S1700000x1_S1700000_n_0_n_n_0_1_1 (invSqrt (degree dst)) (startIdx dst))

/-- Layer 1 after its projection: node v receives the sum over the messages e into v of norm(e) · hp(src e, ·),
    plus the bias row; 128 features. -/
def aggregate128 (hp : (⟨S100000x128, .f32⟩ : BufTy).Contents (Elt F)) (src dst : (⟨S1700000, .i32⟩ : BufTy).Contents (Elt F))
    (norm : (⟨S1700000, .f32⟩ : BufTy).Contents (Elt F)) (b : (⟨S128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf (Host.gather gather_S100000x128_S1700000x1_S1700000x128_1_0_n_n_0_1_1128 hp (startIdx src))
        (broadcastInDim S1700000x128 ![0, 1] bcast_S1700000x1_S1700000x128_0_1
          (broadcastInDim S1700000x1 ![0] bcast_S1700000_S1700000x1_0 norm))))
    (broadcastInDim S100000x128 ![0, 1] bcast_S1x128_S100000x128_0_1 (broadcastInDim S1x128 ![1] bcast_S128_S1x128_1 b))

/-- The rectifier between the layers: max(x, 0) entry by entry. -/
def relu128 (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- Layer 2 after its projection: the same aggregation on 64 features. -/
def aggregate64 (hp : (⟨S100000x64, .f32⟩ : BufTy).Contents (Elt F)) (src dst : (⟨S1700000, .i32⟩ : BufTy).Contents (Elt F))
    (norm : (⟨S1700000, .f32⟩ : BufTy).Contents (Elt F)) (b : (⟨S64, .f32⟩ : BufTy).Contents (Elt F)) :
    (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 dst)
      (mulf (Host.gather gather_S100000x64_S1700000x1_S1700000x64_1_0_n_n_0_1_164 hp (startIdx src))
        (broadcastInDim S1700000x64 ![0, 1] bcast_S1700000x1_S1700000x64_0_1
          (broadcastInDim S1700000x1 ![0] bcast_S1700000_S1700000x1_0 norm))))
    (broadcastInDim S100000x64 ![0, 1] bcast_S1x64_S100000x64_0_1 (broadcastInDim S1x64 ![1] bcast_S64_S1x64_1 b))

/-- The hidden features: layer 1 of the projected input, rectified. -/
def hidden (hp : (⟨S100000x128, .f32⟩ : BufTy).Contents (Elt F)) (src dst : (⟨S1700000, .i32⟩ : BufTy).Contents (Elt F))
    (norm : (⟨S1700000, .f32⟩ : BufTy).Contents (Elt F)) (b : (⟨S128, .f32⟩ : BufTy).Contents (Elt F)) :
    (⟨S100000x128, .f32⟩ : BufTy).Contents (Elt F) :=
  relu128 (aggregate128 hp src dst norm b)

/-- The whole network: both projections are plain matrix products (the sum over k of lhs (p, k) · rhs (k, q)). -/
def gcn (x : (⟨S100000x256, .f32⟩ : BufTy).Contents (Elt F)) (e : (⟨S2x1600000, .i32⟩ : BufTy).Contents (Elt F))
    (W1 : (⟨S256x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S100000x64, .f32⟩ : BufTy).Contents (Elt F) :=
  aggregate64
    (Host.dotGeneral (DotDims.plain 100000 128 64) none
      (hidden (Host.dotGeneral (DotDims.plain 100000 256 128) none x W1) (srcIdx e) (dstIdx e) (edgeNorm (srcIdx e) (dstIdx e)) b1)
      W2)
    (srcIdx e) (dstIdx e) (edgeNorm (srcIdx e) (dstIdx e)) b2

end Cert.Gcn

end
-- ==== Proof.KStages.lean ====
/-
  The idealized kernel program's stretches of host operations, each read as one function of the buffers it
  starts from.

  Between its two projection grids the program runs the same host operations as the reference. A stretch of
  host operations rewrites buffer contents one operation at a time; read back at the buffer of interest, the
  fold of a stretch is a composition of the operations' functions applied to the contents the stretch starts
  from, and at a buffer the stretch never writes it is the contents it started from. The three stretches are:
  up to the first projection (sources, targets and the messages' weights, from the edge array alone); between
  the projections (layer 1's aggregation of the first product, then the rectifier); after the second
  projection (layer 2's aggregation of the second product).
-/
import proofs.«172179_j58076547776807_1_alg».proof.Proof.Gen.KernelIdeal.Launch
import proofs.«172179_j58076547776807_1_alg».proof.Proof.Spec
import Idealize.ShloMosaic.Lib.StableHlo.Run

set_option maxRecDepth 16384

noncomputable section

namespace Cert.Gcn.KStages

open Idealize.ShloMosaic Idealize.ShloMosaic.StableHlo Idealize.SL.Sem Cert.KernelIdeal Cert.KernelIdeal.Gen

variable {F : FTy → Type} [FloatOps F] (V : Valuation τ sig (Elt F))

/-- The last stretch: the result is layer 2's aggregation of the second product, over the sources, targets and
    weights computed before the first grid. -/
theorem C_out : after hostOps2 V (Proc.devRef .tc main_v66)
    = Cert.Gcn.aggregate64 (V (Proc.devRef .tc main_v50)) (V (Proc.devRef .tc main_v3)) (V (Proc.devRef .tc main_v6))
        (V (Proc.devRef .tc main_v31)) (V (Proc.devRef .tc main_arg5)) := by
  after_results_simp
  rfl

/-- The middle stretch: the second grid's left operand is the rectified layer-1 aggregation of the first product. -/
theorem B_out : after hostOps1_1 (after hostOps1 V) (Proc.devRef .tc main_v49)
    = Cert.Gcn.hidden (V (Proc.devRef .tc main_v32)) (V (Proc.devRef .tc main_v3)) (V (Proc.devRef .tc main_v6))
        (V (Proc.devRef .tc main_v31)) (V (Proc.devRef .tc main_arg3)) := by
  after_results_simp
  rfl

/-! The middle stretch writes neither the sources, the targets, the weights nor the later arguments. -/
theorem B_keep_v3 : after hostOps1_1 (after hostOps1 V) (Proc.devRef .tc main_v3) = V (Proc.devRef .tc main_v3) := by
  after_results_simp
theorem B_keep_v6 : after hostOps1_1 (after hostOps1 V) (Proc.devRef .tc main_v6) = V (Proc.devRef .tc main_v6) := by
  after_results_simp
theorem B_keep_v31 : after hostOps1_1 (after hostOps1 V) (Proc.devRef .tc main_v31) = V (Proc.devRef .tc main_v31) := by
  after_results_simp
theorem B_keep_arg4 : after hostOps1_1 (after hostOps1 V) (Proc.devRef .tc main_arg4) = V (Proc.devRef .tc main_arg4) := by
  after_results_simp
theorem B_keep_arg5 : after hostOps1_1 (after hostOps1 V) (Proc.devRef .tc main_arg5) = V (Proc.devRef .tc main_arg5) := by
  after_results_simp

/-- The first stretch computes the message sources from the edge array, -/
theorem A_src : after hostOps0_2 (after hostOps0_1 (after hostOps0 V)) (Proc.devRef .tc main_v3) = Cert.Gcn.srcIdx (V (Proc.devRef .tc main_arg1)) := by
  after_results_simp
  rfl

/-- the message targets, -/
theorem A_dst : after hostOps0_2 (after hostOps0_1 (after hostOps0 V)) (Proc.devRef .tc main_v6) = Cert.Gcn.dstIdx (V (Proc.devRef .tc main_arg1)) := by
  after_results_simp
  rfl

/-- and the messages' weights. -/
theorem A_norm : after hostOps0_2 (after hostOps0_1 (after hostOps0 V)) (Proc.devRef .tc main_v31)
    = Cert.Gcn.edgeNorm (Cert.Gcn.srcIdx (V (Proc.devRef .tc main_arg1))) (Cert.Gcn.dstIdx (V (Proc.devRef .tc main_arg1))) := by
  after_results_simp
  rfl

/-! The first stretch writes no argument. -/
theorem A_keep_arg0 : after hostOps0_2 (after hostOps0_1 (after hostOps0 V)) (Proc.devRef .tc main_arg0) = V (Proc.devRef .tc main_arg0) := by
  after_results_simp
theorem A_keep_arg2 : after hostOps0_2 (after hostOps0_1 (after hostOps0 V)) (Proc.devRef .tc main_arg2) = V (Proc.devRef .tc main_arg2) := by
  after_results_simp
theorem A_keep_arg3 : after hostOps0_2 (after hostOps0_1 (after hostOps0 V)) (Proc.devRef .tc main_arg3) = V (Proc.devRef .tc main_arg3) := by
  after_results_simp
theorem A_keep_arg4 : after hostOps0_2 (after hostOps0_1 (after hostOps0 V)) (Proc.devRef .tc main_arg4) = V (Proc.devRef .tc main_arg4) := by
  after_results_simp
theorem A_keep_arg5 : after hostOps0_2 (after hostOps0_1 (after hostOps0 V)) (Proc.devRef .tc main_arg5) = V (Proc.devRef .tc main_arg5) := by
  after_results_simp

end Cert.Gcn.KStages

end
-- ==== Proof.KValue.lean ====
/-
  The idealized kernel program's result is the network's function of its launch contents, provided each
  projection grid leaves the plain matrix product in its output array.

  The run names the buffer contents at every boundary between segments. Reading the result buffer back: the last
  stretch of host operations gives layer 2's aggregation of the second grid's output; a grid changes only its own
  arrays, so the sources, targets, weights and arguments pass through it; the second grid's left operand is the
  middle stretch's rectified layer-1 aggregation of the first grid's output; and the sources, targets and weights
  are the first stretch's results from the edge array. With each grid's output array the plain product of its two
  operand arrays as the grid finds them, the composition is the network applied to the six arguments as launched.
-/
import proofs.«172179_j58076547776807_1_alg».proof.Proof.Gen.KernelIdeal.Frame
import proofs.«172179_j58076547776807_1_alg».proof.Proof.KStages

set_option maxRecDepth 16384

noncomputable section

namespace Cert.Gcn.KValue

open Idealize.ShloMosaic Idealize.ShloMosaic.TcCoe Idealize.ShloMosaic.StableHlo Idealize.SL.Sem
open Cert.KernelIdeal Cert.KernelIdeal.Gen

variable {F : FTy → Type} [FloatOps F]

/-- The first grid, entered with any buffer contents, leaves in its output array the plain product of its two
    operand arrays: entry (p, q) is the sum over k of lhs (p, k) · rhs (k, q). -/
def Grid0Product (F : FTy → Type) [FloatOps F] : Prop :=
  ∀ (V : (c : Dev nD) → (b : Ref sig .tc) → Buf (Elt F) ((c : Thread nD τ).loc b)) (c : Dev nD),
    (dat0 (F := F) V c).arrAt 2 cfg0.N
      = Host.dotGeneral (F := F) (φ₁ := .f32) (φ₂ := .f32) (DotDims.plain 100000 256 128) none (V c main_arg0) (V c main_arg2)

/-- The same for the second grid. -/
def Grid1Product (F : FTy → Type) [FloatOps F] : Prop :=
  ∀ (V : (c : Dev nD) → (b : Ref sig .tc) → Buf (Elt F) ((c : Thread nD τ).loc b)) (c : Dev nD),
    (dat1 (F := F) V c).arrAt 2 cfg1.N
      = Host.dotGeneral (F := F) (φ₁ := .f32) (φ₂ := .f32) (DotDims.plain 100000 128 64) none (V c main_v49) (V c main_arg4)

variable (m : (ℓ : Loc nD τ sig) → Buf (Elt F) ℓ) (ρ : Dev nD → PrngReg) (c : Dev nD)

/-! ## At the first grid's entry: the first stretch's results, and the arguments as launched -/

theorem entry0_src : W3 m ρ c (Proc.devRef .tc main_v3) = Cert.Gcn.srcIdx (m ((c : Thread nD τ).loc main_arg1)) := KStages.A_src (W0 m ρ c)
theorem entry0_dst : W3 m ρ c (Proc.devRef .tc main_v6) = Cert.Gcn.dstIdx (m ((c : Thread nD τ).loc main_arg1)) := KStages.A_dst (W0 m ρ c)
theorem entry0_norm : W3 m ρ c (Proc.devRef .tc main_v31)
    = Cert.Gcn.edgeNorm (Cert.Gcn.srcIdx (m ((c : Thread nD τ).loc main_arg1))) (Cert.Gcn.dstIdx (m ((c : Thread nD τ).loc main_arg1))) := KStages.A_norm (W0 m ρ c)
theorem entry0_arg0 : W3 m ρ c (Proc.devRef .tc main_arg0) = m ((c : Thread nD τ).loc main_arg0) := KStages.A_keep_arg0 (W0 m ρ c)
theorem entry0_arg2 : W3 m ρ c (Proc.devRef .tc main_arg2) = m ((c : Thread nD τ).loc main_arg2) := KStages.A_keep_arg2 (W0 m ρ c)
theorem entry0_arg3 : W3 m ρ c (Proc.devRef .tc main_arg3) = m ((c : Thread nD τ).loc main_arg3) := KStages.A_keep_arg3 (W0 m ρ c)
theorem entry0_arg4 : W3 m ρ c (Proc.devRef .tc main_arg4) = m ((c : Thread nD τ).loc main_arg4) := KStages.A_keep_arg4 (W0 m ρ c)
theorem entry0_arg5 : W3 m ρ c (Proc.devRef .tc main_arg5) = m ((c : Thread nD τ).loc main_arg5) := KStages.A_keep_arg5 (W0 m ρ c)

/-! ## At the first grid's exit: its output array, and everything else as entered -/

theorem exit0_prod (h0 : Grid0Product F) : W4 m ρ c (Proc.devRef .tc main_v32)
    = Host.dotGeneral (F := F) (φ₁ := .f32) (φ₂ := .f32) (DotDims.plain 100000 256 128) none (W3 m ρ c (Proc.devRef .tc main_arg0)) (W3 m ρ c (Proc.devRef .tc main_arg2)) :=
  (W4_arr m ρ c 2).trans (h0 (V3 m ρ) c)

/-! ## At the second grid's entry: the middle stretch's result -/

theorem entry1_hidden : W6 m ρ c (Proc.devRef .tc main_v49)
    = Cert.Gcn.hidden (W4 m ρ c (Proc.devRef .tc main_v32)) (W4 m ρ c (Proc.devRef .tc main_v3)) (W4 m ρ c (Proc.devRef .tc main_v6))
        (W4 m ρ c (Proc.devRef .tc main_v31)) (W4 m ρ c (Proc.devRef .tc main_arg3)) := KStages.B_out (W4 m ρ c)
theorem entry1_v3 : W6 m ρ c (Proc.devRef .tc main_v3) = W4 m ρ c (Proc.devRef .tc main_v3) := KStages.B_keep_v3 (W4 m ρ c)
theorem entry1_v6 : W6 m ρ c (Proc.devRef .tc main_v6) = W4 m ρ c (Proc.devRef .tc main_v6) := KStages.B_keep_v6 (W4 m ρ c)
theorem entry1_v31 : W6 m ρ c (Proc.devRef .tc main_v31) = W4 m ρ c (Proc.devRef .tc main_v31) := KStages.B_keep_v31 (W4 m ρ c)
theorem entry1_arg4 : W6 m ρ c (Proc.devRef .tc main_arg4) = W4 m ρ c (Proc.devRef .tc main_arg4) := KStages.B_keep_arg4 (W4 m ρ c)
theorem entry1_arg5 : W6 m ρ c (Proc.devRef .tc main_arg5) = W4 m ρ c (Proc.devRef .tc main_arg5) := KStages.B_keep_arg5 (W4 m ρ c)

/-! ## At the second grid's exit -/

theorem exit1_prod (h1 : Grid1Product F) : W7 m ρ c (Proc.devRef .tc main_v50)
    = Host.dotGeneral (F := F) (φ₁ := .f32) (φ₂ := .f32) (DotDims.plain 100000 128 64) none (W6 m ρ c (Proc.devRef .tc main_v49)) (W6 m ρ c (Proc.devRef .tc main_arg4)) :=
  (W7_arr m ρ c 2).trans (h1 (V6 m ρ) c)

/-! ## The result -/

/-- The contents after the last stretch, at the result buffer, are the network applied to the six arguments as
    launched. -/
theorem result_eq (h0 : Grid0Product F) (h1 : Grid1Product F) :
    W8 m ρ c (Proc.devRef .tc main_v66)
      = Cert.Gcn.gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (KStages.C_out (W7 m ρ c)).trans ?_
  -- through the second grid
  rw [exit1_prod m ρ c h1, W7_of_ne m ρ c main_v3 (by decide), W7_of_ne m ρ c main_v6 (by decide),
    W7_of_ne m ρ c main_v31 (by decide), W7_of_ne m ρ c main_arg5 (by decide)]
  -- through the middle stretch
  rw [entry1_hidden, entry1_v3, entry1_v6, entry1_v31, entry1_arg4, entry1_arg5]
  -- through the first grid
  rw [exit0_prod m ρ c h0, W4_of_ne m ρ c main_v3 (by decide), W4_of_ne m ρ c main_v6 (by decide),
    W4_of_ne m ρ c main_v31 (by decide), W4_of_ne m ρ c main_arg3 (by decide), W4_of_ne m ρ c main_arg4 (by decide),
    W4_of_ne m ρ c main_arg5 (by decide)]
  -- through the first stretch
  rw [entry0_src, entry0_dst, entry0_norm, entry0_arg0, entry0_arg2, entry0_arg3, entry0_arg4, entry0_arg5]
  rfl

end Cert.Gcn.KValue

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Region0.lean ====
/-
  The first of the two row-tiled matrix products, read on the extended reals.

  The left array is [100000, 256], the right array [256, 128], the result [100000, 128]. The grid has 20 points; point t
  holds rows 5000·t … 5000·t + 4999 of the left array (a [5000, 256] tile), the whole right array, and computes the
  [5000, 128] tile of the result with the same rows: tile (p, q) = Σ_k left-tile (p, k) · right (k, q), the vector
  unit's product into a zero accumulator. Narrowing the operands to bf16 changes nothing on the extended reals, and 0 + s = s.
  Row 5000·t + p of the left array is row p of tile t, so that sum is entry (5000·t + p, q) of the product of the
  WHOLE arrays, Σ_k left (5000·t + p, k) · right (k, q): each point writes back its rows of one and the same
  [100000, 128] array, the 20 row ranges fill 0 … 99999, and so the result array ends as the whole product, which is
  also what the host's `dot_general` of the two arrays is entry by entry. Only the grouping of rows into tiles differs between
  the two sides: each entry is, on both, the sum over the same k of the same products, so no law beyond renaming the
  rows is used and nothing needs the entries to be finite.

  Everything is stated at the contents `V` the buffers have when the region is entered.
-/
import proofs.«172179_j58076547776807_1_alg».proof.Proof.Gen.KernelIdeal.Frame
import proofs.«172179_j58076547776807_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.Gcn.Region0

open Idealize.ShloMosaic Idealize.SL.Sem Cert.KernelIdeal Cert.KernelIdeal.Gen
open Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## One tile -/

/-- The body reads and writes its whole tiles: the offsets of its accesses are (0, 0). -/
theorem zero_offsets : (![0, 0] : Fin 2 → Nat) = fun _ => 0 := funext fun a => by fin_cases a <;> rfl

/-- Entry (p, q) of the tile the body computes from a left tile `x0` and the right array `x1`:
    Σ_k x0 (p, k) · x1 (k, q). The narrowing of both operands to bf16 is the identity on the extended reals, the
    accumulator is the zero word, which denotes 0, and the product adds Σ_k x0 (p, k) · x1 (k, q) onto it. -/
theorem tile_at (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact Cert.LibPlainDot.matmul_zero_apply none x0 x1 p q

/-- A tile entry is an entry of the whole product. Let `A`, `B` be the whole arrays and `x0`, `x1` the tiles a point
    holds. If row `j 0` of the left tile is row `i 0` of `A` (`h0`) and column `j 1` of the right tile is column `i 1`
    of `B` (`h1`), then entry `j` of the computed tile and entry `i` of `A · B` are sums over the same k of equal terms. -/
theorem tile_entry (A : FVec Ideal S100000x256 .f32) (B : FVec Ideal S256x128 .f32)
    (x0 : Vec Ideal S5000x256 .f32) (x1 : Vec Ideal S256x128 .f32) (j : S5000x128.Idx) (i : S100000x128.Idx)
    (h0 : ∀ k : Fin 256, x0 (ix2 (j 0) k) = A (ix2 (i 0) k))
    (h1 : ∀ k : Fin 256, x1 (ix2 k (j 1)) = B (ix2 k (i 1))) :
    k0_pay1 x0 x1 j = Host.dotGeneral (F := Ideal) (DotDims.plain 100000 256 128) none A B i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  rw [tile_at]
  refine Eq.trans ?_ (Cert.LibPlainDot.dotGeneral_apply none .single A B r s).symm
  exact Finset.sum_congr rfl fun k _ => congrArg₂ (fun a b : EReal => a * b) (h0 k) (h1 k)

/-! ## Which rows a point holds -/

/-- The three index maps over the grid: at point t the left array's tile index is (t, 0), the right array's is
    (0, 0) at every point, the result's is (t, 0). Checked point by point over the 20 points. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the whole product `A · B`, `A` and `B` the arrays as the region finds them.
    The buffer after the body is the computed tile of the two tiles the point holds. An element of a tile sits in
    its array at (tile index) × (tile extent) + (its coordinate inside the tile) on each axis: row p of the left
    tile is row t · 5000 + p of `A`, as row p of the result tile is row t · 5000 + p of the result, and the columns
    of the left tile and all of the right tile are in place (tile index 0). So `tile_entry` applies. -/
theorem written_back (c : Dev nD) (t : Fin cfg0.N) :
    (dat0 (F := Ideal) V c).flushed 2 t
      = ((cfg0.win 2).blk t).view.read (Elt Ideal)
          (Host.dotGeneral (F := Ideal) (φ₁ := .f32) (φ₂ := .f32) (DotDims.plain 100000 256 128) none (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x256) zero_offsets, View.ld_unit_zero (S := S256x128) zero_offsets]
  obtain ⟨e00, e01, e10, e11, e20, e21⟩ := index_maps t
  funext j
  show k0_pay1 (iblk0 V c 0 t) (iblk0 V c 1 t) j
    = Host.dotGeneral (F := Ideal) (φ₁ := .f32) (φ₂ := .f32) (DotDims.plain 100000 256 128) none (V c main_arg0) (V c main_arg2)
        (((cfg0.win 2).blk t).view.emb j)
  refine tile_entry (V c main_arg0) (V c main_arg2) (iblk0 V c 0 t) (iblk0 V c 1 t) j (((cfg0.win 2).blk t).view.emb j)
    (fun k => ?_) (fun k => ?_)
  · -- row `j 0` of the left tile and row `j 0` of the result tile are the same row of their arrays
    show V c main_arg0 (((cfg0.win 0).blk t).view.emb (ix2 (j 0) k)) = V c main_arg0 (ix2 (((cfg0.win 2).blk t).view.emb j 0) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      rw [e00, e20]
    | ⟨1, _⟩ =>
      show win0_0.index t (1 : Fin 2) * 256 + 1 * k.val = k.val
      rw [e01]; omega
  · -- the right tile is the right array; column `j 1` of the result tile is column `j 1` of the result
    show V c main_arg2 (((cfg0.win 1).blk t).view.emb (ix2 k (j 1))) = V c main_arg2 (ix2 k (((cfg0.win 2).blk t).view.emb j 1))
    refine congrArg (V c main_arg2) (funext fun a => Fin.ext ?_)
    match a with
    | ⟨0, _⟩ =>
      show win0_1.index t (0 : Fin 2) * 256 + 1 * k.val = k.val
      rw [e10]; omega
    | ⟨1, _⟩ =>
      show win0_1.index t (1 : Fin 2) * 128 + 1 * (j 1).val = win0_2.index t (1 : Fin 2) * 128 + 1 * (j 1).val
      rw [e11, e21]

/-! ## The tiles fill the result -/

/-- An entry of the result is in point t's tile iff each coordinate is in the tile's range on its axis. -/
theorem in_tile_iff (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Every entry of the result is in some point's tile: row r is one of the rows 5000 · (r / 5000) … + 4999 of point
    r / 5000 (a point, since r < 100000 = 20 · 5000), and every column is in the one column range 0 … 127. Every
    point writes its tile back. -/
theorem tiles_cover (i : S100000x128.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  have ht : (i 0).val / 5000 < cfg0.N := by show _ < grid0.N; rw [hN]; omega
  obtain ⟨-, -, -, -, e20, e21⟩ := index_maps ⟨(i 0).val / 5000, ht⟩
  refine ⟨⟨(i 0).val / 5000, ht⟩, flush0_2 _, ?_⟩
  rw [in_tile_iff]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e21]; omega

/-! ## The result array -/

/-- After the region the result array is the product of the whole left and right arrays: every point writes back its
    tile of that one array (`written_back`) and the tiles fill it (`tiles_cover`), so whatever the order of the
    write-backs the array ends holding it. -/
theorem arr_eq (c : Dev nD) :
    (dat0 (F := Ideal) V c).arrAt 2 cfg0.N
      = Host.dotGeneral (F := Ideal) (φ₁ := .f32) (φ₂ := .f32) (DotDims.plain 100000 256 128) none (V c main_arg0) (V c main_arg2) :=
  (dat0 (F := Ideal) V c).arrAt_eq_of_cover 2 _ (fun t _ => written_back V c t) tiles_cover

end Cert.Gcn.Region0

end
-- ==== Proof.Region1.lean ====
/-
  The second of the two row-tiled matrix products, read on the extended reals.

  The left array is [100000, 128], the right array [128, 64], the result [100000, 64]. The grid has 20 points; point t
  holds rows 5000·t … 5000·t + 4999 of the left array (a [5000, 128] tile), the whole right array, and computes the
  [5000, 64] tile of the result with the same rows: tile (p, q) = Σ_k left-tile (p, k) · right (k, q), the vector
  unit's product into a zero accumulator (the body first recasts the left tile to the shape it already has, which is the identity). Narrowing the operands to bf16 changes nothing on the extended reals, and 0 + s = s.
  Row 5000·t + p of the left array is row p of tile t, so that sum is entry (5000·t + p, q) of the product of the
  WHOLE arrays, Σ_k left (5000·t + p, k) · right (k, q): each point writes back its rows of one and the same
  [100000, 64] array, the 20 row ranges fill 0 … 99999, and so the result array ends as the whole product, which is
  also what the host's `dot_general` of the two arrays is entry by entry. Only the grouping of rows into tiles differs between
  the two sides: each entry is, on both, the sum over the same k of the same products, so no law beyond renaming the
  rows is used and nothing needs the entries to be finite.

  Everything is stated at the contents `V` the buffers have when the region is entered.
-/
import proofs.«172179_j58076547776807_1_alg».proof.Proof.Gen.KernelIdeal.Frame
import proofs.«172179_j58076547776807_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.Gcn.Region1

open Idealize.ShloMosaic Idealize.SL.Sem Cert.KernelIdeal Cert.KernelIdeal.Gen
open Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## One tile -/

/-- The body reads and writes its whole tiles: the offsets of its accesses are (0, 0). -/
theorem zero_offsets : (![0, 0] : Fin 2 → Nat) = fun _ => 0 := funext fun a => by fin_cases a <;> rfl

/-- Entry (p, q) of the tile the body computes from a left tile `x0` and the right array `x1`:
    Σ_k x0 (p, k) · x1 (k, q). The recast of the left tile to its own shape is the identity. The narrowing of both operands to bf16 is the identity on the extended reals, the
    accumulator is the zero word, which denotes 0, and the product adds Σ_k x0 (p, k) · x1 (k, q) onto it. -/
theorem tile_at (x0 : Vec Ideal S5000x128 .f32) (x1 : Vec Ideal S128x64 .f32) (p : Fin 5000) (q : Fin 64) :
    k1_pay1 x0 x1 (ix2 p q) = ∑ k : Fin 128, x0 (ix2 p k) * x1 (ix2 k q) := by
  unfold k1_pay1
  rw [shapeCast_self]
  exact Cert.LibPlainDot.matmul_zero_apply none x0 x1 p q

/-- A tile entry is an entry of the whole product. Let `A`, `B` be the whole arrays and `x0`, `x1` the tiles a point
    holds. If row `j 0` of the left tile is row `i 0` of `A` (`h0`) and column `j 1` of the right tile is column `i 1`
    of `B` (`h1`), then entry `j` of the computed tile and entry `i` of `A · B` are sums over the same k of equal terms. -/
theorem tile_entry (A : FVec Ideal S100000x128 .f32) (B : FVec Ideal S128x64 .f32)
    (x0 : Vec Ideal S5000x128 .f32) (x1 : Vec Ideal S128x64 .f32) (j : S5000x64.Idx) (i : S100000x64.Idx)
    (h0 : ∀ k : Fin 128, x0 (ix2 (j 0) k) = A (ix2 (i 0) k))
    (h1 : ∀ k : Fin 128, x1 (ix2 k (j 1)) = B (ix2 k (i 1))) :
    k1_pay1 x0 x1 j = Host.dotGeneral (F := Ideal) (DotDims.plain 100000 128 64) none A B i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  rw [tile_at]
  refine Eq.trans ?_ (Cert.LibPlainDot.dotGeneral_apply none .single A B r s).symm
  exact Finset.sum_congr rfl fun k _ => congrArg₂ (fun a b : EReal => a * b) (h0 k) (h1 k)

/-! ## Which rows a point holds -/

/-- The three index maps over the grid: at point t the left array's tile index is (t, 0), the right array's is
    (0, 0) at every point, the result's is (t, 0). Checked point by point over the 20 points. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is tile t of the whole product `A · B`, `A` and `B` the arrays as the region finds them.
    The buffer after the body is the computed tile of the two tiles the point holds. An element of a tile sits in
    its array at (tile index) × (tile extent) + (its coordinate inside the tile) on each axis: row p of the left
    tile is row t · 5000 + p of `A`, as row p of the result tile is row t · 5000 + p of the result, and the columns
    of the left tile and all of the right tile are in place (tile index 0). So `tile_entry` applies. -/
theorem written_back (c : Dev nD) (t : Fin cfg1.N) :
    (dat1 (F := Ideal) V c).flushed 2 t
      = ((cfg1.win 2).blk t).view.read (Elt Ideal)
          (Host.dotGeneral (F := Ideal) (φ₁ := .f32) (φ₂ := .f32) (DotDims.plain 100000 128 64) none (V c main_v49) (V c main_arg4)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S128x64) zero_offsets]
  obtain ⟨e00, e01, e10, e11, e20, e21⟩ := index_maps t
  funext j
  show k1_pay1 (iblk1 V c 0 t) (iblk1 V c 1 t) j
    = Host.dotGeneral (F := Ideal) (φ₁ := .f32) (φ₂ := .f32) (DotDims.plain 100000 128 64) none (V c main_v49) (V c main_arg4)
        (((cfg1.win 2).blk t).view.emb j)
  refine tile_entry (V c main_v49) (V c main_arg4) (iblk1 V c 0 t) (iblk1 V c 1 t) j (((cfg1.win 2).blk t).view.emb j)
    (fun k => ?_) (fun k => ?_)
  · -- row `j 0` of the left tile and row `j 0` of the result tile are the same row of their arrays
    show V c main_v49 (((cfg1.win 0).blk t).view.emb (ix2 (j 0) k)) = V c main_v49 (ix2 (((cfg1.win 2).blk t).view.emb j 0) k)
    refine congrArg (V c main_v49) (funext fun a => Fin.ext ?_)
    match a with
    | ⟨0, _⟩ =>
      show win1_0.index t (0 : Fin 2) * 5000 + 1 * (j 0).val = win1_2.index t (0 : Fin 2) * 5000 + 1 * (j 0).val
      rw [e00, e20]
    | ⟨1, _⟩ =>
      show win1_0.index t (1 : Fin 2) * 128 + 1 * k.val = k.val
      rw [e01]; omega
  · -- the right tile is the right array; column `j 1` of the result tile is column `j 1` of the result
    show V c main_arg4 (((cfg1.win 1).blk t).view.emb (ix2 k (j 1))) = V c main_arg4 (ix2 k (((cfg1.win 2).blk t).view.emb j 1))
    refine congrArg (V c main_arg4) (funext fun a => Fin.ext ?_)
    match a with
    | ⟨0, _⟩ =>
      show win1_1.index t (0 : Fin 2) * 128 + 1 * k.val = k.val
      rw [e10]; omega
    | ⟨1, _⟩ =>
      show win1_1.index t (1 : Fin 2) * 64 + 1 * (j 1).val = win1_2.index t (1 : Fin 2) * 64 + 1 * (j 1).val
      rw [e11, e21]

/-! ## The tiles fill the result -/

/-- An entry of the result is in point t's tile iff each coordinate is in the tile's range on its axis. -/
theorem in_tile_iff (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v50).slice (win1_2.rect t)).set ↔ _
  rw [View.set_slice_whole, Rect.mem_set_unit]
  exact Iff.rfl

/-- Every entry of the result is in some point's tile: row r is one of the rows 5000 · (r / 5000) … + 4999 of point
    r / 5000 (a point, since r < 100000 = 20 · 5000), and every column is in the one column range 0 … 63. Every
    point writes its tile back. -/
theorem tiles_cover (i : S100000x64.Idx) :
    ∃ t : Fin cfg1.N, (cfg1.win 2).flush t = true ∧ i ∈ ((cfg1.win 2).blk t).view.set := by
  have hN : grid1.N = 20 := N_1
  have hi0 : (i 0).val < 100000 := (i 0).isLt
  have hi1 : (i 1).val < 64 := (i 1).isLt
  have ht : (i 0).val / 5000 < cfg1.N := by show _ < grid1.N; rw [hN]; omega
  obtain ⟨-, -, -, -, e20, e21⟩ := index_maps ⟨(i 0).val / 5000, ht⟩
  refine ⟨⟨(i 0).val / 5000, ht⟩, flush1_2 _, ?_⟩
  rw [in_tile_iff]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e21]; omega

/-! ## The result array -/

/-- After the region the result array is the product of the whole left and right arrays: every point writes back its
    tile of that one array (`written_back`) and the tiles fill it (`tiles_cover`), so whatever the order of the
    write-backs the array ends holding it. -/
theorem arr_eq (c : Dev nD) :
    (dat1 (F := Ideal) V c).arrAt 2 cfg1.N
      = Host.dotGeneral (F := Ideal) (φ₁ := .f32) (φ₂ := .f32) (DotDims.plain 100000 128 64) none (V c main_v49) (V c main_arg4) :=
  (dat1 (F := Ideal) V c).arrAt_eq_of_cover 2 _ (fun t _ => written_back V c t) tiles_cover

end Cert.Gcn.Region1

end
-- ==== Proof.RStages.lean ====
/-
  The reference program's stretches of host operations, each read as one function of the buffers it starts
  from.

  The reference is one straight line of host operations; cut at its two matrix products it falls into the same
  three stretches as the kernel program: up to the first product (sources, targets and the messages' weights,
  from the edge array alone), between the products (layer 1's aggregation, then the rectifier), after the
  second product (layer 2's aggregation). Read back at the buffer of interest, the fold of a stretch is a
  composition of its operations' functions applied to the contents it starts from, and at a buffer the stretch
  never writes it is those contents.
-/
import proofs.«172179_j58076547776807_1_alg».proof.Proof.RefRun
import proofs.«172179_j58076547776807_1_alg».proof.Proof.Spec
import Idealize.ShloMosaic.Lib.StableHlo.Run

set_option maxRecDepth 16384

noncomputable section

namespace Cert.Gcn.RStages

open Idealize.ShloMosaic Idealize.ShloMosaic.StableHlo Idealize.SL.Sem Cert.ReferenceIdeal Cert.ReferenceIdeal.Gen Cert.ReferenceIdeal.RunP

variable {F : FTy → Type} [FloatOps F] (V : Valuation τ sig (Elt F))

/-- The last stretch: the result is layer 2's aggregation of the second product, over the sources, targets and
    weights computed before the first product. -/
theorem C_out : after opsC V (Proc.devRef .tc main_v66)
    = Cert.Gcn.aggregate64 (V (Proc.devRef .tc main_v50)) (V (Proc.devRef .tc main_v3)) (V (Proc.devRef .tc main_v6))
        (V (Proc.devRef .tc main_v31)) (V (Proc.devRef .tc main_arg5)) := by
  after_results_simp
  rfl

/-- The middle stretch: the second product's left operand is the rectified layer-1 aggregation of the first product. -/
theorem B_out : after opsB V (Proc.devRef .tc main_v49)
    = Cert.Gcn.hidden (V (Proc.devRef .tc main_v32)) (V (Proc.devRef .tc main_v3)) (V (Proc.devRef .tc main_v6))
        (V (Proc.devRef .tc main_v31)) (V (Proc.devRef .tc main_arg3)) := by
  after_results_simp
  rfl

/-! The middle stretch writes neither the sources, the targets, the weights nor the later arguments. -/
theorem B_keep_v3 : after opsB V (Proc.devRef .tc main_v3) = V (Proc.devRef .tc main_v3) := by
  after_results_simp
theorem B_keep_v6 : after opsB V (Proc.devRef .tc main_v6) = V (Proc.devRef .tc main_v6) := by
  after_results_simp
theorem B_keep_v31 : after opsB V (Proc.devRef .tc main_v31) = V (Proc.devRef .tc main_v31) := by
  after_results_simp
theorem B_keep_arg4 : after opsB V (Proc.devRef .tc main_arg4) = V (Proc.devRef .tc main_arg4) := by
  after_results_simp
theorem B_keep_arg5 : after opsB V (Proc.devRef .tc main_arg5) = V (Proc.devRef .tc main_arg5) := by
  after_results_simp

/-- The first stretch computes the message sources from the edge array, -/
theorem A_src : after opsA V (Proc.devRef .tc main_v3) = Cert.Gcn.srcIdx (V (Proc.devRef .tc main_arg1)) := by
  after_results_simp
  rfl

/-- the message targets, -/
theorem A_dst : after opsA V (Proc.devRef .tc main_v6) = Cert.Gcn.dstIdx (V (Proc.devRef .tc main_arg1)) := by
  after_results_simp
  rfl

/-- and the messages' weights. -/
theorem A_norm : after opsA V (Proc.devRef .tc main_v31)
    = Cert.Gcn.edgeNorm (Cert.Gcn.srcIdx (V (Proc.devRef .tc main_arg1))) (Cert.Gcn.dstIdx (V (Proc.devRef .tc main_arg1))) := by
  after_results_simp
  rfl

/-! The first stretch writes no argument. -/
theorem A_keep_arg0 : after opsA V (Proc.devRef .tc main_arg0) = V (Proc.devRef .tc main_arg0) := by
  after_results_simp
theorem A_keep_arg2 : after opsA V (Proc.devRef .tc main_arg2) = V (Proc.devRef .tc main_arg2) := by
  after_results_simp
theorem A_keep_arg3 : after opsA V (Proc.devRef .tc main_arg3) = V (Proc.devRef .tc main_arg3) := by
  after_results_simp
theorem A_keep_arg4 : after opsA V (Proc.devRef .tc main_arg4) = V (Proc.devRef .tc main_arg4) := by
  after_results_simp
theorem A_keep_arg5 : after opsA V (Proc.devRef .tc main_arg5) = V (Proc.devRef .tc main_arg5) := by
  after_results_simp

end Cert.Gcn.RStages

end
-- ==== Proof.RValue.lean ====
/-
  The reference program's result is the network's function of its launch contents.

  The straight line is: first stretch, first product, middle stretch, second product, last stretch. Reading the
  result buffer back through the last stretch gives layer 2's aggregation of what the second product wrote; the
  second product wrote the plain product of the hidden features and the second weight matrix; the hidden features
  are the middle stretch's result over the first product; the first product is the plain product of the input and
  the first weight matrix; and the sources, targets and weights every later stretch reads are the first stretch's
  results from the edge array, which no later operation writes again. The arguments are read as launched.
-/
import proofs.«172179_j58076547776807_1_alg».proof.Proof.RStages
import Idealize.ShloMosaic.Lib.Pipeline.Frame

set_option maxRecDepth 16384

noncomputable section

namespace Cert.Gcn.RValue

open Idealize.ShloMosaic Idealize.ShloMosaic.StableHlo Idealize.SL.Sem Cert.ReferenceIdeal Cert.ReferenceIdeal.Gen Cert.ReferenceIdeal.RunP

variable {F : FTy → Type} [FloatOps F]

section
variable (V : Valuation τ sig (Elt F))

/-- A product operation writes its product buffer -/
theorem dot1_out : (opDot1 (F := F)).result V (Proc.devRef .tc main_v32)
    = Host.dotGeneral dot_S100000x256_S256x128_S100000x128_1_0_0_1_n_n none (V (Proc.devRef .tc main_arg0)) (V (Proc.devRef .tc main_arg2)) := by
  rw [binary_result]

theorem dot2_out : (opDot2 (F := F)).result V (Proc.devRef .tc main_v50)
    = Host.dotGeneral dot_S100000x128_S128x64_S100000x64_1_0_0_1_n_n none (V (Proc.devRef .tc main_v49)) (V (Proc.devRef .tc main_arg4)) := by
  rw [binary_result]

/-- and no other buffer. -/
theorem dot1_keep {r : Ref sig .tc} (h : r ≠ main_v32) : (opDot1 (F := F)).result V (Proc.devRef .tc r) = V (Proc.devRef .tc r) := by
  rw [binary_result_ne]; exact h

theorem dot2_keep {r : Ref sig .tc} (h : r ≠ main_v50) : (opDot2 (F := F)).result V (Proc.devRef .tc r) = V (Proc.devRef .tc r) := by
  rw [binary_result_ne]; exact h

end

/-- The fold of the whole line at the result buffer is the network applied to the six arguments as launched. -/
theorem result_eq (m : (ℓ : Loc nD τ sig) → Buf (Elt F) ℓ) (c : Dev nD) :
    after (ops (F := F)) (launchContents m c) (Proc.devRef .tc main_v66)
      = Cert.Gcn.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  show after (opsA ++ opDot1 :: (opsB ++ opDot2 :: opsC)) (launchContents m c) _ = _
  rw [StableHlo.after_append, after_cons, StableHlo.after_append, after_cons]
  -- the last stretch, over the contents the second product leaves
  rw [RStages.C_out]
  rw [dot2_out, dot2_keep _ (r := main_v3) (by decide), dot2_keep _ (r := main_v6) (by decide),
    dot2_keep _ (r := main_v31) (by decide), dot2_keep _ (r := main_arg5) (by decide)]
  -- the middle stretch, over the contents the first product leaves
  rw [RStages.B_out, RStages.B_keep_v3, RStages.B_keep_v6, RStages.B_keep_v31, RStages.B_keep_arg4, RStages.B_keep_arg5]
  rw [dot1_out, dot1_keep _ (r := main_v3) (by decide), dot1_keep _ (r := main_v6) (by decide),
    dot1_keep _ (r := main_v31) (by decide), dot1_keep _ (r := main_arg3) (by decide),
    dot1_keep _ (r := main_arg4) (by decide), dot1_keep _ (r := main_arg5) (by decide)]
  -- the first stretch, over the launch contents
  rw [RStages.A_src, RStages.A_dst, RStages.A_norm, RStages.A_keep_arg0, RStages.A_keep_arg2, RStages.A_keep_arg3,
    RStages.A_keep_arg4, RStages.A_keep_arg5]
  rfl

/-! No operation of the line writes an argument: at an argument's buffer the fold is the launch contents. -/
theorem kept_arg0 (m : (ℓ : Loc nD τ sig) → Buf (Elt F) ℓ) (c : Dev nD) :
    after (ops (F := F)) (launchContents m c) (Proc.devRef .tc main_arg0) = m ((c.tc : Thread nD τ).loc main_arg0) := by
  show after (opsA ++ opDot1 :: (opsB ++ opDot2 :: opsC)) (launchContents m c) _ = _
  rw [StableHlo.after_append, after_cons, StableHlo.after_append, after_cons]
  after_results_simp <;> rfl

theorem kept_arg1 (m : (ℓ : Loc nD τ sig) → Buf (Elt F) ℓ) (c : Dev nD) :
    after (ops (F := F)) (launchContents m c) (Proc.devRef .tc main_arg1) = m ((c.tc : Thread nD τ).loc main_arg1) := by
  show after (opsA ++ opDot1 :: (opsB ++ opDot2 :: opsC)) (launchContents m c) _ = _
  rw [StableHlo.after_append, after_cons, StableHlo.after_append, after_cons]
  after_results_simp <;> rfl

theorem kept_arg2 (m : (ℓ : Loc nD τ sig) → Buf (Elt F) ℓ) (c : Dev nD) :
    after (ops (F := F)) (launchContents m c) (Proc.devRef .tc main_arg2) = m ((c.tc : Thread nD τ).loc main_arg2) := by
  show after (opsA ++ opDot1 :: (opsB ++ opDot2 :: opsC)) (launchContents m c) _ = _
  rw [StableHlo.after_append, after_cons, StableHlo.after_append, after_cons]
  after_results_simp <;> rfl

theorem kept_arg3 (m : (ℓ : Loc nD τ sig) → Buf (Elt F) ℓ) (c : Dev nD) :
    after (ops (F := F)) (launchContents m c) (Proc.devRef .tc main_arg3) = m ((c.tc : Thread nD τ).loc main_arg3) := by
  show after (opsA ++ opDot1 :: (opsB ++ opDot2 :: opsC)) (launchContents m c) _ = _
  rw [StableHlo.after_append, after_cons, StableHlo.after_append, after_cons]
  after_results_simp <;> rfl

theorem kept_arg4 (m : (ℓ : Loc nD τ sig) → Buf (Elt F) ℓ) (c : Dev nD) :
    after (ops (F := F)) (launchContents m c) (Proc.devRef .tc main_arg4) = m ((c.tc : Thread nD τ).loc main_arg4) := by
  show after (opsA ++ opDot1 :: (opsB ++ opDot2 :: opsC)) (launchContents m c) _ = _
  rw [StableHlo.after_append, after_cons, StableHlo.after_append, after_cons]
  after_results_simp <;> rfl

theorem kept_arg5 (m : (ℓ : Loc nD τ sig) → Buf (Elt F) ℓ) (c : Dev nD) :
    after (ops (F := F)) (launchContents m c) (Proc.devRef .tc main_arg5) = m ((c.tc : Thread nD τ).loc main_arg5) := by
  show after (opsA ++ opDot1 :: (opsB ++ opDot2 :: opsC)) (launchContents m c) _ = _
  rw [StableHlo.after_append, after_cons, StableHlo.after_append, after_cons]
  after_results_simp <;> rfl

end Cert.Gcn.RValue

end
-- ==== Proof.lean ====
/-
  The certificate: a two-layer graph convolution whose two dense projections run as row-tiled matrix products on
  the TensorCore, against the same network written with plain matrix products.

  Both programs apply the same host operations around the projections: the message sources and targets from the
  edge array (with a self loop per node), the symmetric degree normalisation of the messages, and per layer a
  gather of the projected rows, a scaling, a scatter-add to the targets and the bias; a rectifier sits between the
  layers. The kernel program computes each projection on a grid of 20 points, point t producing rows
  5000·t … 5000·t + 4999 of the product from the same rows of the left operand and the whole right operand, with
  operands rounded to bf16 on the way in. On the extended reals a change of float format is the identity and a
  product into a zero accumulator is the plain sum over k of lhs (p, k) · rhs (k, q), which is also what the
  host's dot_general is; the blocks tile the rows, so each grid leaves the whole product. Each entry of each
  product is, on both sides, the sum over the same k of the same products, and everything downstream is the same
  function applied to equal arrays: no law of the extended reals that fails at an infinity is used, and the
  precondition (every float input finite) is never opened.

  The two kernel programs' frames are the theorems of the generated frame modules imported here; the reference's
  frame and value come from its straight line of host operations read as a fold. The idealization rewrote no
  operation, so there is nothing to preserve.
-/
import proofs.«172179_j58076547776807_1_alg».proof.Defs
import proofs.«172179_j58076547776807_1_alg».proof.Proof.Gen.Kernel
import proofs.«172179_j58076547776807_1_alg».proof.Proof.Gen.Kernel.Frame
import proofs.«172179_j58076547776807_1_alg».proof.Proof.Gen.KernelIdeal
import proofs.«172179_j58076547776807_1_alg».proof.Proof.Gen.KernelIdeal.Frame
import proofs.«172179_j58076547776807_1_alg».proof.Proof.Gen.ReferenceIdeal
import proofs.«172179_j58076547776807_1_alg».proof.Proof.Gen.Pre_finite_inputs
import proofs.«172179_j58076547776807_1_alg».proof.Proof.KRun
import proofs.«172179_j58076547776807_1_alg».proof.Proof.KValue
import proofs.«172179_j58076547776807_1_alg».proof.Proof.Region0
import proofs.«172179_j58076547776807_1_alg».proof.Proof.Region1
import proofs.«172179_j58076547776807_1_alg».proof.Proof.RefRun
import proofs.«172179_j58076547776807_1_alg».proof.Proof.RValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun _ h c =>
      ⟨(h c _).trans (Cert.Gcn.RValue.kept_arg0 m c), (h c _).trans (Cert.Gcn.RValue.kept_arg1 m c),
       (h c _).trans (Cert.Gcn.RValue.kept_arg2 m c), (h c _).trans (Cert.Gcn.RValue.kept_arg3 m c),
       (h c _).trans (Cert.Gcn.RValue.kept_arg4 m c), (h c _).trans (Cert.Gcn.RValue.kept_arg5 m c)⟩)
    (Cert.ReferenceIdeal.RunP.run_after (F := Ideal) m ρ)

/-- The idealization pass rewrote no operation. -/
theorem preserves : Cert.preserves_Kernel_KernelIdeal := trivial

/-- Both idealized programs end with the network's value of the six arguments: the kernel program because each
    grid leaves the plain product of its operands, the reference because its two products are plain products. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.KValue.result_eq m ρ c Cert.Gcn.Region0.arr_eq Cert.Gcn.Region1.arr_eq), (h c).2⟩)
      (Cert.Gcn.KRun.run_result (F := Ideal) m ρ)
  · refine (θ_run Cert.ReferenceIdeal.defs _ _).mono (fun _ h c => ⟨(h c _).trans ?_,
        (h c _).trans (Cert.Gcn.RValue.kept_arg0 m' c), (h c _).trans (Cert.Gcn.RValue.kept_arg1 m' c),
        (h c _).trans (Cert.Gcn.RValue.kept_arg2 m' c), (h c _).trans (Cert.Gcn.RValue.kept_arg3 m' c),
        (h c _).trans (Cert.Gcn.RValue.kept_arg4 m' c), (h c _).trans (Cert.Gcn.RValue.kept_arg5 m' c)⟩)
      (Cert.ReferenceIdeal.RunP.run_after (F := Ideal) m' ρ')
    rw [Cert.Gcn.RValue.result_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
